-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x32x32 : Shape := ⟨4, ![256, 512, 32, 32]⟩
abbrev S32x512 : Shape := ⟨2, ![32, 512]⟩
abbrev S32 : Shape := ⟨1, ![32]⟩
abbrev S1024x32 : Shape := ⟨2, ![1024, 32]⟩
abbrev S1024 : Shape := ⟨1, ![1024]⟩
abbrev S_ : Shape := ⟨0, ![]⟩

class Facts : Prop where
  bcast_S_S256x512x32x32 : S_.BroadcastsInDim S256x512x32x32 (![] : Fin 0 → Fin S256x512x32x32.rank)
  reducesTo_S256x512x32x32_S_d0_1_2_3 : S256x512x32x32.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S1024x32 : S_.BroadcastsInDim S1024x32 (![] : Fin 0 → Fin S1024x32.rank)
  reducesTo_S1024x32_S_d0_1 : S1024x32.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x32 1) : IVec S_ 1 :=
  let main_c_5 : IVec S_ 1 := constantI S_ 1 1#1
  let main_v17 : IVec S_ 1 := (fun x v => Host.reduce IntOp.andi x v reducesTo_S1024x32_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S256x512x32x32 .f32) (main_arg1 : FVec F S32x512 .f32) (main_arg2 : FVec F S32 .f32) (main_arg3 : FVec F S1024x32 .f32) (main_arg4 : FVec F S1024 .f32) : IVec S_ 1 :=
  let main_v0 : FVec F S256x512x32x32 .f32 := Host.absf main_arg0
  let main_cst : FVec F S_ .f32 := constant S_ .f32 0x7F800000#32
  let main_v1 : FVec F S256x512x32x32 .f32 := broadcastInDim S256x512x32x32 ![] bcast_S_S256x512x32x32 main_cst
  let main_v2 : IVec S256x512x32x32 1 := cmpf .olt main_v0 main_v1
  let main_c : IVec S_ 1 := constantI S_ 1 1#1
  let main_v3 : IVec S_ 1 := (fun x v => Host.reduce IntOp.andi x v reducesTo_S256x512x32x32_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S1024x32 .f32 := Host.absf main_arg3
  let main_cst_4 : FVec F S_ .f32 := constant S_ .f32 0x7F800000#32
  let main_v15 : FVec F S1024x32 .f32 := broadcastInDim S1024x32 ![] bcast_S_S1024x32 main_cst_4
  let main_v16 : IVec S1024x32 1 := cmpf .olt main_v14 main_v15
  fn_part1 (F := F) main_arg4 main_v13 main_v16
-- ==== Kernel.lean ====
abbrev S256x512x32x32 : Shape := ⟨4, ![256, 512, 32, 32]⟩
abbrev S32x512 : Shape := ⟨2, ![32, 512]⟩
abbrev S32 : Shape := ⟨1, ![32]⟩
abbrev S1024x32 : Shape := ⟨2, ![1024, 32]⟩
abbrev S1024 : Shape := ⟨1, ![1024]⟩
abbrev S256x512x1024 : Shape := ⟨3, ![256, 512, 1024]⟩
abbrev S256x512x1 : Shape := ⟨3, ![256, 512, 1]⟩
abbrev S8x512x1024 : Shape := ⟨3, ![8, 512, 1024]⟩
abbrev S8x512x1 : Shape := ⟨3, ![8, 512, 1]⟩
abbrev S8x512 : Shape := ⟨2, ![8, 512]⟩
abbrev S256x512 : Shape := ⟨2, ![256, 512]⟩
abbrev S512x32 : Shape := ⟨2, ![512, 32]⟩
abbrev S256x32 : Shape := ⟨2, ![256, 32]⟩
abbrev S1x32 : Shape := ⟨2, ![1, 32]⟩
abbrev S_ : Shape := ⟨0, ![]⟩
abbrev S32x1024 : Shape := ⟨2, ![32, 1024]⟩
abbrev S256x1024 : Shape := ⟨2, ![256, 1024]⟩
abbrev S1x1024 : Shape := ⟨2, ![1, 1024]⟩
abbrev S8x256x1024 : Shape := ⟨3, ![8, 256, 1024]⟩
abbrev S8x256 : Shape := ⟨2, ![8, 256]⟩
abbrev S8x256x1 : Shape := ⟨3, ![8, 256, 1]⟩

abbrev nBuf : Space → Nat
  | .hbm => 33
  | .vmem => 12
  | .smem => 0
  | _ => 0

abbrev bufTy : (tb : Table) → Fin (tcTables nBuf tb) → BufTy
  | .hbm, ⟨0, _⟩ => ⟨S256x512x32x32, .f32⟩
  | .hbm, ⟨1, _⟩ => ⟨S32x512, .f32⟩
  | .hbm, ⟨2, _⟩ => ⟨S32, .f32⟩
  | .hbm, ⟨3, _⟩ => ⟨S1024x32, .f32⟩
  | .hbm, ⟨4, _⟩ => ⟨S1024, .f32⟩
  | .hbm, ⟨5, _⟩ => ⟨S256x512x1024, .f32⟩
  | .hbm, ⟨6, _⟩ => ⟨S256x512x1, .f32⟩
  | .hbm, ⟨7, _⟩ => ⟨S256x512, .f32⟩
  | .hbm, ⟨8, _⟩ => ⟨S512x32, .f32⟩
  | .hbm, ⟨9, _⟩ => ⟨S256x32, .f32⟩
  | .hbm, ⟨10, _⟩ => ⟨S1x32, .f32⟩
  | .hbm, ⟨11, _⟩ => ⟨S256x32, .f32⟩
  | .hbm, ⟨12, _⟩ => ⟨S256x32, .f32⟩
  | .hbm, ⟨13, _⟩ => ⟨S_, .f32⟩
  | .hbm, ⟨14, _⟩ => ⟨S256x32, .f32⟩
  | .hbm, ⟨15, _⟩ => ⟨S256x32, .f32⟩
  | .hbm, ⟨16, _⟩ => ⟨S32x1024, .f32⟩
  | .hbm, ⟨17, _⟩ => ⟨S256x1024, .f32⟩
  | .hbm, ⟨18, _⟩ => ⟨S1x1024, .f32⟩
  | .hbm, ⟨19, _⟩ => ⟨S256x1024, .f32⟩
  | .hbm, ⟨20, _⟩ => ⟨S256x1024, .f32⟩
  | .hbm, ⟨21, _⟩ => ⟨S256x512, .f32⟩
  | .hbm, ⟨22, _⟩ => ⟨S256x512, .f32⟩
  | .hbm, ⟨23, _⟩ => ⟨S256x512, .f32⟩
  | .hbm, ⟨24, _⟩ => ⟨S_, .f32⟩
  | .hbm, ⟨25, _⟩ => ⟨S256x512, .f32⟩
  | .hbm, ⟨26, _⟩ => ⟨S256x512, .f32⟩
  | .hbm, ⟨27, _⟩ => ⟨S_, .f32⟩
  | .hbm, ⟨28, _⟩ => ⟨S256x512, .f32⟩
  | .hbm, ⟨29, _⟩ => ⟨S256x512, .f32⟩
  | .hbm, ⟨30, _⟩ => ⟨S256x512, .f32⟩
  | .hbm, ⟨31, _⟩ => ⟨S256x512x1024, .f32⟩
  | .hbm, ⟨32, _⟩ => ⟨S256x512x32x32, .f32⟩
  | .local _ .vmem, ⟨0, _⟩ => ⟨S8x512x1024, .f32⟩
  | .local _ .vmem, ⟨1, _⟩ => ⟨S8x512x1024, .f32⟩
  | .local _ .vmem, ⟨2, _⟩ => ⟨S8x512x1, .f32⟩
  | .local _ .vmem, ⟨3, _⟩ => ⟨S8x512x1, .f32⟩
  | .local _ .vmem, ⟨4, _⟩ => ⟨S8x256x1024, .f32⟩
  | .local _ .vmem, ⟨5, _⟩ => ⟨S8x256x1024, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x256, .f32⟩
  | .local _ .vmem, ⟨10, _⟩ => ⟨S8x256x1024, .f32⟩
  | .local _ .vmem, ⟨11, _⟩ => ⟨S8x256x1024, .f32⟩
  | _, _ => ⟨S256x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_cst : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![32, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S8x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S8x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S256x512x32x32_S256x512x1024 : S256x512x32x32.ShapeCasts S256x512x1024
  inb_S8x512x1024_S8x512x1024_0_0_0 : ∀ a, (![0, 0, 0] : Fin 3 → Nat) a + S8x512x1024.size a ≤ S8x512x1024.size a
  h_S8x512x1024 : 0 < S8x512x1024.numel
  shapeCasts_S8x512x1024_S8x512x1024 : S8x512x1024.ShapeCasts S8x512x1024
  reduces_S8x512x1024_S8x512 : S8x512x1024.Reduces [2] S8x512
  shapeCasts_S8x512_S8x512x1 : S8x512.ShapeCasts S8x512x1
  inb_S8x512x1_S8x512x1_0_0_0 : ∀ a, (![0, 0, 0] : Fin 3 → Nat) a + S8x512x1.size a ≤ S8x512x1.size a
  h_S8x512x1 : 0 < S8x512x1.numel
  shapeCasts_S256x512x1_S256x512 : S256x512x1.ShapeCasts S256x512
  transposes_S32x512_S512x32_1_0 : S32x512.Transposes [1, 0] S512x32
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  bcast_S_S256x32 : S_.BroadcastsInDim S256x32 (![] : Fin 0 → Fin S256x32.rank)
  transposes_S1024x32_S32x1024_1_0 : S1024x32.Transposes [1, 0] S32x1024
  bcast_S1024_S1x1024_1 : S1024.BroadcastsInDim S1x1024 (![1] : Fin 1 → Fin S1x1024.rank)
  bcast_S1x1024_S256x1024_0_1 : S1x1024.BroadcastsInDim S256x1024 (![0, 1] : Fin 2 → Fin S256x1024.rank)
  slices_S256x1024_S256x512_0_0 : S256x1024.Slices ![0, 0] S256x512
  bcast_S_S256x512 : S_.BroadcastsInDim S256x512 (![] : Fin 0 → Fin S256x512.rank)
  slices_S256x1024_S256x512_0_512 : S256x1024.Slices ![0, 512] S256x512
  inb_S8x256_S8x256_0_0 : ∀ a, (![0, 0] : Fin 2 → Nat) a + S8x256.size a ≤ S8x256.size a
  h_S8x256 : 0 < S8x256.numel
  shapeCasts_S8x256_S8x256 : S8x256.ShapeCasts S8x256
  shapeCasts_S8x256_S8x256x1 : S8x256.ShapeCasts S8x256x1
  inb_S8x256x1024_S8x256x1024_0_0_0 : ∀ a, (![0, 0, 0] : Fin 3 → Nat) a + S8x256x1024.size a ≤ S8x256x1024.size a
  h_S8x256x1024 : 0 < S8x256x1024.numel
  shapeCasts_S8x256x1024_S8x256x1024 : S8x256x1024.ShapeCasts S8x256x1024
  broadcasts_S8x256x1_S8x256x1024 : S8x256x1.Broadcasts S8x256x1024
  shapeCasts_S256x512x1024_S256x512x32x32 : S256x512x1024.ShapeCasts S256x512x32x32
  dot_S256x512_S512x32_S256x32_1_0_0_1_n_n_wf : DotDims.WF S256x512 S512x32 S256x32 [1] [0] [0] [1] [] []
  dot_S256x32_S32x1024_S256x1024_1_0_0_1_n_n_wf : DotDims.WF S256x32 S32x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x1024.size a ≤ S256x512x1024.size a
  hwx0_0 : ∀ i : grid0.Coords, EltTy.bits .f32 = 32 ∨ (Rect.block (s := S256x512x1024) S8x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x1.size a ≤ S256x512x1.size a
  hwx0_1 : ∀ i : grid0.Coords, EltTy.bits .f32 = 32 ∨ (Rect.block (s := S256x512x1) S8x512x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x1024.size a ≤ S256x512x1024.size a
  hwx1_0 : ∀ i : grid1.Coords, EltTy.bits .f32 = 32 ∨ (Rect.block (s := S256x512x1024) S8x256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256.size a ≤ S256x512.size a
  hwx1_1 : ∀ i : grid1.Coords, EltTy.bits .f32 = 32 ∨ (Rect.block (s := S256x512) S8x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256.size a ≤ S256x512.size a
  hwx1_2 : ∀ i : grid1.Coords, EltTy.bits .f32 = 32 ∨ (Rect.block (s := S256x512) S8x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x256x1024.size a ≤ S256x512x1024.size a
  hwx1_3 : ∀ i : grid1.Coords, EltTy.bits .f32 = 32 ∨ (Rect.block (s := S256x512x1024) S8x256x1024.size (cc1_transform_3 i) (hinb1_3 i)).WholeWords (EltTy.packing .f32)

variable [Facts₀]

def dot_S256x512_S512x32_S256x32_1_0_0_1_n_n : DotDims S256x512 S512x32 S256x32 where
  lhsContracting := [1]
  rhsContracting := [0]
  lhsNonContracting := [0]
  rhsNonContracting := [1]
  lhsBatch := []
  rhsBatch := []
  wf := dot_S256x512_S512x32_S256x32_1_0_0_1_n_n_wf
def dot_S256x32_S32x1024_S256x1024_1_0_0_1_n_n : DotDims S256x32 S32x1024 S256x1024 where
  lhsContracting := [1]
  rhsContracting := [0]
  lhsNonContracting := [0]
  rhsNonContracting := [1]
  lhsBatch := []
  rhsBatch := []
  wf := dot_S256x32_S32x1024_S256x1024_1_0_0_1_n_n_wf

abbrev win0_0 : Pipeline.Window sig grid0 :=
  Pipeline.Window.ofSpec (Memref.whole main_v0) S8x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S8x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S8x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S8x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S8x256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S256x512x32x32 : Shape := ⟨4, ![256, 512, 32, 32]⟩
abbrev S32x512 : Shape := ⟨2, ![32, 512]⟩
abbrev S32 : Shape := ⟨1, ![32]⟩
abbrev S1024x32 : Shape := ⟨2, ![1024, 32]⟩
abbrev S1024 : Shape := ⟨1, ![1024]⟩
abbrev S_ : Shape := ⟨0, ![]⟩
abbrev S256x512 : Shape := ⟨2, ![256, 512]⟩
abbrev S512x32 : Shape := ⟨2, ![512, 32]⟩
abbrev S256x32 : Shape := ⟨2, ![256, 32]⟩
abbrev S1x32 : Shape := ⟨2, ![1, 32]⟩
abbrev S32x1024 : Shape := ⟨2, ![32, 1024]⟩
abbrev S256x1024 : Shape := ⟨2, ![256, 1024]⟩
abbrev S1x1024 : Shape := ⟨2, ![1, 1024]⟩
abbrev S256x512x1x1 : Shape := ⟨4, ![256, 512, 1, 1]⟩

abbrev nBuf : Space → Nat
  | .hbm => 39
  | .vmem => 0
  | .smem => 0
  | _ => 0

abbrev bufTy : (tb : Table) → Fin (tcTables nBuf tb) → BufTy
  | .hbm, ⟨0, _⟩ => ⟨S256x512x32x32, .f32⟩
  | .hbm, ⟨1, _⟩ => ⟨S32x512, .f32⟩
  | .hbm, ⟨2, _⟩ => ⟨S32, .f32⟩
  | .hbm, ⟨3, _⟩ => ⟨S1024x32, .f32⟩
  | .hbm, ⟨4, _⟩ => ⟨S1024, .f32⟩
  | .hbm, ⟨5, _⟩ => ⟨S_, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S512x32, .f32⟩
  | .hbm, ⟨11, _⟩ => ⟨S256x32, .f32⟩
  | .hbm, ⟨12, _⟩ => ⟨S1x32, .f32⟩
  | .hbm, ⟨13, _⟩ => ⟨S256x32, .f32⟩
  | .hbm, ⟨14, _⟩ => ⟨S256x32, .f32⟩
  | .hbm, ⟨15, _⟩ => ⟨S_, .f32⟩
  | .hbm, ⟨16, _⟩ => ⟨S256x32, .f32⟩
  | .hbm, ⟨17, _⟩ => ⟨S256x32, .f32⟩
  | .hbm, ⟨18, _⟩ => ⟨S32x1024, .f32⟩
  | .hbm, ⟨19, _⟩ => ⟨S256x1024, .f32⟩
  | .hbm, ⟨20, _⟩ => ⟨S1x1024, .f32⟩
  | .hbm, ⟨21, _⟩ => ⟨S256x1024, .f32⟩
  | .hbm, ⟨22, _⟩ => ⟨S256x1024, .f32⟩
  | .hbm, ⟨23, _⟩ => ⟨S256x512, .f32⟩
  | .hbm, ⟨24, _⟩ => ⟨S256x512, .f32⟩
  | .hbm, ⟨25, _⟩ => ⟨S256x512, .f32⟩
  | .hbm, ⟨26, _⟩ => ⟨S256x512, .f32⟩
  | .hbm, ⟨27, _⟩ => ⟨S_, .f32⟩
  | .hbm, ⟨28, _⟩ => ⟨S256x512, .f32⟩
  | .hbm, ⟨29, _⟩ => ⟨S256x512, .f32⟩
  | .hbm, ⟨30, _⟩ => ⟨S_, .f32⟩
  | .hbm, ⟨31, _⟩ => ⟨S256x512, .f32⟩
  | .hbm, ⟨32, _⟩ => ⟨S256x512, .f32⟩
  | .hbm, ⟨33, _⟩ => ⟨S256x512x1x1, .f32⟩
  | .hbm, ⟨34, _⟩ => ⟨S256x512x1x1, .f32⟩
  | .hbm, ⟨35, _⟩ => ⟨S256x512x32x32, .f32⟩
  | .hbm, ⟨36, _⟩ => ⟨S256x512x32x32, .f32⟩
  | .hbm, ⟨37, _⟩ => ⟨S256x512x32x32, .f32⟩
  | .hbm, ⟨38, _⟩ => ⟨S256x512x32x32, .f32⟩
  | _, _ => ⟨S256x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  reducesTo_S256x512x32x32_S256x512_d2_3 : S256x512x32x32.ReducesTo [2, 3] S256x512
  h_S_ : 0 < S_.numel
  bcast_S_S256x512 : S_.BroadcastsInDim S256x512 (![] : Fin 0 → Fin S256x512.rank)
  transposes_S32x512_S512x32_1_0 : S32x512.Transposes [1, 0] S512x32
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  bcast_S_S256x32 : S_.BroadcastsInDim S256x32 (![] : Fin 0 → Fin S256x32.rank)
  transposes_S1024x32_S32x1024_1_0 : S1024x32.Transposes [1, 0] S32x1024
  bcast_S1024_S1x1024_1 : S1024.BroadcastsInDim S1x1024 (![1] : Fin 1 → Fin S1x1024.rank)
  bcast_S1x1024_S256x1024_0_1 : S1x1024.BroadcastsInDim S256x1024 (![0, 1] : Fin 2 → Fin S256x1024.rank)
  slices_S256x1024_S256x512_0_0 : S256x1024.Slices ![0, 0] S256x512
  slices_S256x1024_S256x512_0_512 : S256x1024.Slices ![0, 512] S256x512
  bcast_S256x512_S256x512x1x1_0_1 : S256x512.BroadcastsInDim S256x512x1x1 (![0, 1] : Fin 2 → Fin S256x512x1x1.rank)
  bcast_S256x512x1x1_S256x512x32x32_0_1_2_3 : S256x512x1x1.BroadcastsInDim S256x512x32x32 (![0, 1, 2, 3] : Fin 4 → Fin S256x512x32x32.rank)
  dot_S256x512_S512x32_S256x32_1_0_0_1_n_n_wf : DotDims.WF S256x512 S512x32 S256x32 [1] [0] [0] [1] [] []
  dot_S256x32_S32x1024_S256x1024_1_0_0_1_n_n_wf : DotDims.WF S256x32 S32x1024 S256x1024 [1] [0] [0] [1] [] []

variable [Facts₀]

def dot_S256x512_S512x32_S256x32_1_0_0_1_n_n : DotDims S256x512 S512x32 S256x32 where
  lhsContracting := [1]
  rhsContracting := [0]
  lhsNonContracting := [0]
  rhsNonContracting := [1]
  lhsBatch := []
  rhsBatch := []
  wf := dot_S256x512_S512x32_S256x32_1_0_0_1_n_n_wf
def dot_S256x32_S32x1024_S256x1024_1_0_0_1_n_n : DotDims S256x32 S32x1024 S256x1024 where
  lhsContracting := [1]
  rhsContracting := [0]
  lhsNonContracting := [0]
  rhsNonContracting := [1]
  lhsBatch := []
  rhsBatch := []
  wf := dot_S256x32_S32x1024_S256x1024_1_0_0_1_n_n_wf

class Facts : Prop extends Facts₀ where

variable [Facts]
-- ==== Proof.KRun.lean ====
/-
  The idealized kernel program's run with its result named.

  The program is seven segments: a reshape, the pooling region, three stretches of host operations (the
  excitation), the affine region, a reshape back. Folding each segment's effect over the launch memory gives the
  contents of every buffer at every boundary; the last boundary's contents are what the program ends holding.
  Here that is said of the result buffer as well as of the five argument arrays: every weakly fair execution
  terminates, faults nowhere, and ends with the result at the last boundary's contents and the arguments as
  launched.
-/
import proofs.«172013_j74612171866186_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run theorem's implicit arguments are found by unifying its conclusion with this statement, which takes
-- unfolding plain definitions in a metavariable's type
set_option backward.isDefEq.respectTransparency.types false in
/-- Every weakly fair execution of the program terminates without a fault; the result buffer ends at the contents
    of the last segment boundary and each argument array as launched. -/
theorem run_named : θ_run defs (onTc (τ := τ) (main (F := F))) ⟨m, fun _ => 0, ρ⟩ (fun r => ∀ c : Dev nD,
      r.2.mem ((c.tc : Thread nD τ).loc main_v23) = W7 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v23 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelIdeal.KRun

end
-- ==== Proof.LibKeepdims3.lean ====
/-
  Layout operations of rank-3 "keepdims" arrays, and the flattening of two trailing axes, read at an index given by
  coordinates, over any extents.

  A reduction over the last axis that keeps it as a unit axis produces an array of shape [a, b, 1]; a kernel body
  reaches that shape from [a, b] by a shape cast and leaves it for [a, b, c] by a broadcast, and a host program drops
  the unit axis again by a reshape. A host program that views the two trailing axes [c, d] of a rank-4 array as one
  axis of length c·d does so by a reshape, and undoes it by the inverse reshape. Each lemma says which element of the
  operand the operation's result holds at (p, q, …): a shape cast keeps the row-major position, a broadcast reads the
  unit axis at 0.
-/
import Idealize.ShloMosaic.Lib.Pipeline.Value
import Idealize.ShloMosaic.Lib.ValueIdx

namespace Cert.Lib.Keepdims3

open Idealize.ShloMosaic Idealize.ShloMosaic.ValueIdx

variable {α : Type}

/-- A shape cast [a, b] → [a, b, 1] holds at (p, q, u) the operand's element (p, q): appending a unit axis does not
    move an element's row-major position. -/
theorem shapeCast_ab_ab1_apply {a b : Nat} (v : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ v h (ix3 p q u) = v (ix2 p q) :=
  shapeCast_apply v h _ _ (by
    rw [Shape.rowMajor_val_two, Shape.rowMajor_val_three]
    show p.val * b + q.val = (p.val * b + q.val) * 1 + u.val
    have := u.isLt
    omega)

/-- A shape cast [a, b, 1] → [a, b] holds at (p, q) the operand's element (p, q, 0). -/
theorem shapeCast_ab1_ab_apply {a b : Nat} (v : (⟨3, ![a, b, 1]⟩ : Shape).Idx → α)
    (h : (⟨3, ![a, b, 1]⟩ : Shape).ShapeCasts ⟨2, ![a, b]⟩) (p : Fin a) (q : Fin b) :
    shapeCast ⟨2, ![a, b]⟩ v h (ix2 p q) = v (ix3 p q 0) :=
  shapeCast_apply v h _ _ (by
    rw [Shape.rowMajor_val_two, Shape.rowMajor_val_three]
    show (p.val * b + q.val) * 1 + 0 = p.val * b + q.val
    omega)

/-- A broadcast [a, b, 1] → [a, b, c] holds at (p, q, k) the operand's element (p, q, 0): the unit axis is
    repeated along the new extent, the other two coordinates are kept. -/
theorem broadcastTo_ab1_abc_apply {a b c : Nat} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q 0) :=
  broadcastTo_apply v h _ _ (fun ax => by
    match ax with
    | ⟨0, _⟩ =>
      show p.val = if a = 1 then 0 else p.val
      split
      · have := p.isLt; omega
      · rfl
    | ⟨1, _⟩ =>
      show q.val = if b = 1 then 0 else q.val
      split
      · have := q.isLt; omega
      · rfl
    | ⟨2, _⟩ =>
      show (0 : Nat) = if (1 : Nat) = 1 then 0 else k.val
      rw [if_pos rfl])

/-- A shape cast [a, b, c, d] → [a, b, n] with n = c·d holds at (p, q, k) the operand's element (p, q, r, s) when
    k = r·d + s: the two trailing axes are laid out row after row. -/
theorem shapeCast_abcd_abn_apply {a b c d n : Nat} (hn : n = c * d) (v : (⟨4, ![a, b, c, d]⟩ : Shape).Idx → α)
    (h : (⟨4, ![a, b, c, d]⟩ : Shape).ShapeCasts ⟨3, ![a, b, n]⟩)
    (p : Fin a) (q : Fin b) (r : Fin c) (s : Fin d) (k : Fin n) (hk : k.val = r.val * d + s.val) :
    shapeCast ⟨3, ![a, b, n]⟩ v h (ix3 p q k) = v (ix4 p q r s) :=
  shapeCast_apply v h _ _ (by
    rw [Shape.rowMajor_val_four, Shape.rowMajor_val_three]
    show ((p.val * b + q.val) * c + r.val) * d + s.val = (p.val * b + q.val) * n + k.val
    rw [hk, hn]
    ring)

/-- A shape cast [a, b, n] → [a, b, c, d] with n = c·d holds at (p, q, r, s) the operand's element (p, q, k) with
    k = r·d + s. -/
theorem shapeCast_abn_abcd_apply {a b c d n : Nat} (hn : n = c * d) (v : (⟨3, ![a, b, n]⟩ : Shape).Idx → α)
    (h : (⟨3, ![a, b, n]⟩ : Shape).ShapeCasts ⟨4, ![a, b, c, d]⟩)
    (p : Fin a) (q : Fin b) (r : Fin c) (s : Fin d) (k : Fin n) (hk : k.val = r.val * d + s.val) :
    shapeCast ⟨4, ![a, b, c, d]⟩ v h (ix4 p q r s) = v (ix3 p q k) :=
  shapeCast_apply v h _ _ (by
    rw [Shape.rowMajor_val_four, Shape.rowMajor_val_three]
    show (p.val * b + q.val) * n + k.val = ((p.val * b + q.val) * c + r.val) * d + s.val
    rw [hk, hn]
    ring)

end Cert.Lib.Keepdims3
-- ==== Proof.Pool.lean ====
/-
  The pooling region's output array.

  The region runs over 32 grid points; point t loads rows 8t … 8t+7 of the flattened input, an [8, 512, 1024] block,
  sums each (row, channel) line over its 1024 lanes, multiplies the sum by the constant 2⁻¹⁰ and writes the
  [8, 512, 1] result back to rows 8t … 8t+7 of the output. The 32 blocks tile the [256, 512, 1] output, so after the
  region the output holds, at (b, c, 0), the sum over k of the input at (b, c, k) times that constant — one function
  of the array the region found, whatever that array is.
-/
import proofs.«172013_j74612171866186_2_alg».proof.Proof.Gen.KernelIdeal.Frame
import proofs.«172013_j74612171866186_2_alg».proof.Proof.LibKeepdims3
import Idealize.ShloMosaic.PureOps.Ideal.Laws
import Idealize.ShloMosaic.Lib.ValueIdx
import Idealize.ShloMosaic.Lib.Pipeline.Value

set_option maxRecDepth 16384

noncomputable section

namespace Cert.KernelIdeal.Pool

open Cert.KernelIdeal Cert.KernelIdeal.Gen
open Idealize.ShloMosaic Idealize.ShloMosaic.TcCoe Idealize.ShloMosaic.ValueIdx Idealize.SL.Sem
open Idealize.ShloMosaic.Pipeline (Dat)

/-! ## The body's arithmetic at an index -/

/-- Inserting lane `k` into the reduced index (p, q) gives (p, q, k). -/
theorem lift_eq (h : S8x512x1024.Reduces [2] S8x512) (p : Fin 8) (q : Fin 512) (k : Fin 1024) :
    h.lift (ix2 p q) k = ix3 p q k := by
  funext a; apply Fin.ext
  match a with
  | ⟨0, _⟩ => rfl
  | ⟨1, _⟩ => rfl
  | ⟨2, _⟩ => rfl

/-- What the body stores, at (p, q, u): the sum of the loaded block's line (p, q) over its 1024 lanes, times the
    constant the body multiplies by. The lane reduction is a plain sum on the extended reals, the two shape casts
    keep positions, and the constant is splat. -/
theorem pay_at (x0 : Vec Ideal S8x512x1024 .f32) (p : Fin 8) (q : Fin 512) (u : Fin 1) :
    k0_pay1 (F := Ideal) x0 (ix3 p q u) = (∑ k : Fin 1024, x0 (ix3 p q k)) * Ideal.ofBits .f32 0x3A800000#32 := by
  unfold k0_pay1
  dsimp only
  show shapeCast S8x512x1 _ _ (ix3 p q u) * Ideal.ofBits .f32 0x3A800000#32 = _
  refine congrArg (· * Ideal.ofBits .f32 0x3A800000#32) ?_
  refine (Cert.Lib.Keepdims3.shapeCast_ab_ab1_apply _ _ p q u).trans ?_
  refine (Ideal.multiReduction_add_single _ _ _ _ _ (ix2 p q)).trans ?_
  rw [shapeCast_self]
  exact Finset.sum_congr rfl (fun k _ => congrArg x0 (lift_eq _ p q k))

/-! ## The output array as one function of the input array -/

/-- The pooled array of a [256, 512, 1024] array: at (b, c, ·) the sum over the last axis times 2⁻¹⁰ (kept as the
    f32 word the body multiplies by). -/
def pooled (x : S256x512x1024.Idx → EReal) : S256x512x1.Idx → EReal :=
  fun i => (∑ k : Fin 1024, x (ix3 (n0 := 256) (n1 := 512) (i 0) (i 1) k)) * Ideal.ofBits .f32 0x3A800000#32

theorem hz3 : (![0, 0, 0] : Fin 3 → Nat) = fun _ => 0 := funext fun a => by fin_cases a <;> rfl

/-- The printed index maps over the 32 grid points: the input block and the output block of a point sit at the same
    row block and channel block, the input's lane block is 0, and the output's block indices stay in range. -/
theorem idx_facts : ∀ t : Fin cfg0.N, win0_0.index t (0 : Fin 3) = win0_1.index t (0 : Fin 3)
    ∧ win0_0.index t (1 : Fin 3) = win0_1.index t (1 : Fin 3)
    ∧ win0_0.index t (2 : Fin 3) = 0
    ∧ win0_1.index t (0 : Fin 3) ≤ 31
    ∧ win0_1.index t (1 : Fin 3) = 0
    ∧ win0_1.index t (2 : Fin 3) = 0 :=
  (by decide +kernel : ∀ t : Fin grid0.N, _)

/-- Every row block is some point's. -/
theorem idx_onto : ∀ q0 : Fin 32, ∃ t : Fin cfg0.N, win0_1.index t = ![q0.val, 0, 0] :=
  (by decide +kernel : ∀ q0 : Fin 32, ∃ t : Fin grid0.N, win0_1.index t = ![q0.val, 0, 0])

variable (V : (c : Dev nD) → (b : Ref sig .tc) → Buf (Elt Ideal) ((c : Thread nD τ).loc b))

/-- What point `t` writes back is block `t` of the pooled array of the input as the region finds it. -/
theorem flushed_eq (c : Dev nD) (t : Fin cfg0.N) :
    (dat0 V c).flushed 1 t = ((cfg0.win 1).blk t).view.read (Elt Ideal) (pooled (V c main_v0)) := by
  show (cfg0.win 1).cut (grid0.coords t) ((dat0 V c).after 1 t) = _
  rw [after0_1]
  unfold out0_1
  rw [View.canon_unit_zero hz3]
  simp only [View.ld_unit_zero (S := S8x512x1024) hz3]
  obtain ⟨e0, e1, e2, e3, e4, e5⟩ := idx_facts t
  funext j
  obtain ⟨p, q, u, rfl⟩ : ∃ (p : Fin 8) (q : Fin 512) (u : Fin 1), j = ix3 p q u := ⟨j 0, j 1, j 2, eq_ix3 j⟩
  refine (pay_at _ p q u).trans ?_
  show _ = pooled (V c main_v0) (((cfg0.win 1).blk t).view.emb (ix3 p q u))
  unfold pooled
  refine congrArg (· * Ideal.ofBits .f32 0x3A800000#32) (Finset.sum_congr rfl fun k _ => ?_)
  show V c main_v0 (((cfg0.win 0).blk t).view.emb (ix3 p q k)) = _
  refine congrArg (V c main_v0) ?_
  funext a; apply Fin.ext
  match a with
  | ⟨0, _⟩ => show win0_0.index t (0 : Fin 3) * 8 + 1 * p.val = win0_1.index t (0 : Fin 3) * 8 + 1 * p.val; omega
  | ⟨1, _⟩ => show win0_0.index t (1 : Fin 3) * 512 + 1 * q.val = win0_1.index t (1 : Fin 3) * 512 + 1 * q.val; omega
  | ⟨2, _⟩ => show win0_0.index t (2 : Fin 3) * 1024 + 1 * k.val = k.val; omega

/-- An index of the output is in point `t`'s block iff each coordinate is in the block's range on its axis. -/
theorem mem_blk (t : Fin cfg0.N) (i : S256x512x1.Idx) :
    i ∈ ((cfg0.win 1).blk t).view.set ↔ ∀ a : Fin 3, win0_1.index t a * S8x512x1.size a ≤ (i a).val ∧ (i a).val < win0_1.index t a * S8x512x1.size a + S8x512x1.size a := by
  show i ∈ ((View.whole main_v1).slice (win0_1.rect t)).set ↔ _
  rw [View.set_slice_whole, Rect.mem_set_unit]
  exact Iff.rfl

/-- Every index of the output is in the block of the point that handles its row block, row / 8. -/
theorem cover (i : S256x512x1.Idx) :
    ∃ t : Fin cfg0.N, (cfg0.win 1).flush t = true ∧ i ∈ ((cfg0.win 1).blk t).view.set := by
  have hi0 : (i 0).val < 256 := (i 0).isLt
  have hi1 : (i 1).val < 512 := (i 1).isLt
  have hi2 : (i 2).val < 1 := (i 2).isLt
  obtain ⟨t, ht⟩ := idx_onto ⟨(i 0).val / 8, by omega⟩
  have q0 : win0_1.index t (0 : Fin 3) = (i 0).val / 8 := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 8 ≤ (i 0).val ∧ (i 0).val < win0_1.index t (0 : Fin 3) * 8 + 8; omega
  | ⟨1, _⟩ => show win0_1.index t (1 : Fin 3) * 512 ≤ (i 1).val ∧ (i 1).val < win0_1.index t (1 : Fin 3) * 512 + 512; omega
  | ⟨2, _⟩ => show win0_1.index t (2 : Fin 3) * 1 ≤ (i 2).val ∧ (i 2).val < win0_1.index t (2 : Fin 3) * 1 + 1; omega

/-- After the region its output array is the pooled array of the input it found. -/
theorem final (c : Dev nD) : (dat0 V c).arrAt 1 cfg0.N = pooled (V c main_v0) :=
  (dat0 V c).arrAt_eq_of_cover 1 _ (fun t _ => flushed_eq V c t) cover

end Cert.KernelIdeal.Pool

end
-- ==== Proof.Affine.lean ====
/-
  The affine region's output array.

  The region runs over a 32 × 2 grid; point (i, j) loads rows 8i … 8i+7 and channels 256j … 256j+255 of the flattened
  input, an [8, 256, 1024] block, and the matching [8, 256] blocks of the scale and of the bias, multiplies every lane
  of a (row, channel) line by that line's scale, adds that line's bias, and writes the [8, 256, 1024] result to the same
  place in the output. The 64 blocks tile the [256, 512, 1024] output, so after the region the output holds, at
  (b, c, k), the input at (b, c, k) times the scale at (b, c) plus the bias at (b, c) — one function of the three
  arrays the region found, whatever they are.
-/
import proofs.«172013_j74612171866186_2_alg».proof.Proof.Gen.KernelIdeal.Frame
import proofs.«172013_j74612171866186_2_alg».proof.Proof.LibKeepdims3
import Idealize.ShloMosaic.Lib.ValueIdx
import Idealize.ShloMosaic.Lib.Pipeline.Value

set_option maxRecDepth 16384

noncomputable section

namespace Cert.KernelIdeal.Affine

open Cert.KernelIdeal Cert.KernelIdeal.Gen
open Idealize.ShloMosaic Idealize.ShloMosaic.TcCoe Idealize.ShloMosaic.ValueIdx Idealize.SL.Sem
open Idealize.ShloMosaic.Pipeline (Dat)

/-! ## The body's arithmetic at an index -/

/-- What the body stores, at (p, q, k): the loaded input block at (p, q, k) times the loaded scale block at (p, q)
    plus the loaded bias block at (p, q). Each [8, 256] block is cast to [8, 256, 1] and broadcast along the lanes,
    which reads it at (p, q) for every lane. -/
theorem pay_at (s β : Vec Ideal S8x256 .f32) (x : Vec Ideal S8x256x1024 .f32) (p : Fin 8) (q : Fin 256) (k : Fin 1024) :
    k1_pay1 (F := Ideal) s β x (ix3 p q k) = x (ix3 p q k) * s (ix2 p q) + β (ix2 p q) := by
  unfold k1_pay1
  show shapeCast S8x256x1024 x _ (ix3 p q k) * broadcastTo S8x256x1024 _ _ (ix3 p q k) + broadcastTo S8x256x1024 _ _ (ix3 p q k) = _
  refine congrArg₂ (fun a b : EReal => a + b) (congrArg₂ (fun a b : EReal => a * b) ?_ ?_) ?_
  · exact congrFun (shapeCast_self x _) _
  · exact (Cert.Lib.Keepdims3.broadcastTo_ab1_abc_apply _ _ p q k).trans
      ((Cert.Lib.Keepdims3.shapeCast_ab_ab1_apply _ _ p q 0).trans (congrFun (shapeCast_self s _) _))
  · exact (Cert.Lib.Keepdims3.broadcastTo_ab1_abc_apply _ _ p q k).trans
      ((Cert.Lib.Keepdims3.shapeCast_ab_ab1_apply _ _ p q 0).trans (congrFun (shapeCast_self β _) _))

/-! ## The output array as one function of the three input arrays -/

/-- A [256, 512, 1024] array scaled and shifted line by line: at (b, c, k) the element times the scale at (b, c) plus
    the bias at (b, c). -/
def scaled (x : S256x512x1024.Idx → EReal) (s β : S256x512.Idx → EReal) : S256x512x1024.Idx → EReal :=
  fun i => x i * s (ix2 (n0 := 256) (n1 := 512) (i 0) (i 1)) + β (ix2 (n0 := 256) (n1 := 512) (i 0) (i 1))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the 64 grid points: a point's input, scale, bias and output blocks sit at the same
    row block and channel block; the lane block is 0; the output's block indices stay in range. -/
theorem idx_facts : ∀ t : Fin cfg1.N, win1_0.index t (0 : Fin 3) = win1_3.index t (0 : Fin 3)
    ∧ win1_0.index t (1 : Fin 3) = win1_3.index t (1 : Fin 3)
    ∧ win1_0.index t (2 : Fin 3) = win1_3.index t (2 : Fin 3)
    ∧ win1_1.index t (0 : Fin 2) = win1_3.index t (0 : Fin 3)
    ∧ win1_1.index t (1 : Fin 2) = win1_3.index t (1 : Fin 3)
    ∧ win1_2.index t (0 : Fin 2) = win1_3.index t (0 : Fin 3)
    ∧ win1_2.index t (1 : Fin 2) = win1_3.index t (1 : Fin 3)
    ∧ win1_3.index t (0 : Fin 3) ≤ 31
    ∧ win1_3.index t (1 : Fin 3) ≤ 1
    ∧ win1_3.index t (2 : Fin 3) = 0 :=
  (by decide +kernel : ∀ t : Fin grid1.N, _)

/-- Every (row block, channel block) pair is some point's. -/
theorem idx_onto : ∀ (q0 : Fin 32) (q1 : Fin 2), ∃ t : Fin cfg1.N, win1_3.index t = ![q0.val, q1.val, 0] :=
  (by decide +kernel : ∀ (q0 : Fin 32) (q1 : Fin 2), ∃ t : Fin grid1.N, win1_3.index t = ![q0.val, q1.val, 0])

variable (V : (c : Dev nD) → (b : Ref sig .tc) → Buf (Elt Ideal) ((c : Thread nD τ).loc b))

/-- What point `t` writes back is block `t` of the scaled-and-shifted array of the three arrays the region finds. -/
theorem flushed_eq (c : Dev nD) (t : Fin cfg1.N) :
    (dat1 V c).flushed 3 t
      = ((cfg1.win 3).blk t).view.read (Elt Ideal) (scaled (V c main_v0) (V c main_v20) (V c main_v21)) := by
  show (cfg1.win 3).cut (grid1.coords t) ((dat1 V c).after 3 t) = _
  rw [after1_3]
  unfold out1_3
  rw [View.canon_unit_zero hz3]
  simp only [View.ld_unit_zero (S := S8x256x1024) hz3, View.ld_unit_zero (S := S8x256) hz2]
  obtain ⟨e0, e1, e2, e3, e4, e5, e6, e7, e8, e9⟩ := idx_facts t
  funext j
  obtain ⟨p, q, k, rfl⟩ : ∃ (p : Fin 8) (q : Fin 256) (k : Fin 1024), j = ix3 p q k := ⟨j 0, j 1, j 2, eq_ix3 j⟩
  refine (pay_at _ _ _ p q k).trans ?_
  show _ = scaled (V c main_v0) (V c main_v20) (V c main_v21) (((cfg1.win 3).blk t).view.emb (ix3 p q k))
  unfold scaled
  have h0 : ((cfg1.win 0).blk t).view.emb (ix3 p q k) = ((cfg1.win 3).blk t).view.emb (ix3 p q k) := by
    funext a; apply Fin.ext
    match a with
    | ⟨0, _⟩ => show win1_0.index t (0 : Fin 3) * 8 + 1 * p.val = win1_3.index t (0 : Fin 3) * 8 + 1 * p.val; omega
    | ⟨1, _⟩ => show win1_0.index t (1 : Fin 3) * 256 + 1 * q.val = win1_3.index t (1 : Fin 3) * 256 + 1 * q.val; omega
    | ⟨2, _⟩ => show win1_0.index t (2 : Fin 3) * 1024 + 1 * k.val = win1_3.index t (2 : Fin 3) * 1024 + 1 * k.val; omega
  have h1 : ((cfg1.win 1).blk t).view.emb (ix2 p q)
      = ix2 (n0 := 256) (n1 := 512) ((((cfg1.win 3).blk t).view.emb (ix3 p q k)) 0) ((((cfg1.win 3).blk t).view.emb (ix3 p q k)) 1) := by
    funext a; apply Fin.ext
    match a with
    | ⟨0, _⟩ => show win1_1.index t (0 : Fin 2) * 8 + 1 * p.val = win1_3.index t (0 : Fin 3) * 8 + 1 * p.val; omega
    | ⟨1, _⟩ => show win1_1.index t (1 : Fin 2) * 256 + 1 * q.val = win1_3.index t (1 : Fin 3) * 256 + 1 * q.val; omega
  have h2 : ((cfg1.win 2).blk t).view.emb (ix2 p q)
      = ix2 (n0 := 256) (n1 := 512) ((((cfg1.win 3).blk t).view.emb (ix3 p q k)) 0) ((((cfg1.win 3).blk t).view.emb (ix3 p q k)) 1) := by
    funext a; apply Fin.ext
    match a with
    | ⟨0, _⟩ => show win1_2.index t (0 : Fin 2) * 8 + 1 * p.val = win1_3.index t (0 : Fin 3) * 8 + 1 * p.val; omega
    | ⟨1, _⟩ => show win1_2.index t (1 : Fin 2) * 256 + 1 * q.val = win1_3.index t (1 : Fin 3) * 256 + 1 * q.val; omega
  refine congrArg₂ (fun a b : EReal => a + b) (congrArg₂ (fun a b : EReal => a * b) ?_ ?_) ?_
  · show V c main_v0 (((cfg1.win 0).blk t).view.emb (ix3 p q k)) = _
    rw [h0]
  · show V c main_v20 (((cfg1.win 1).blk t).view.emb (ix2 p q)) = _
    rw [h1]
  · show V c main_v21 (((cfg1.win 2).blk t).view.emb (ix2 p q)) = _
    rw [h2]

/-- An index of the output is in point `t`'s block iff each coordinate is in the block's range on its axis. -/
theorem mem_blk (t : Fin cfg1.N) (i : S256x512x1024.Idx) :
    i ∈ ((cfg1.win 3).blk t).view.set ↔ ∀ a : Fin 3, win1_3.index t a * S8x256x1024.size a ≤ (i a).val ∧ (i a).val < win1_3.index t a * S8x256x1024.size a + S8x256x1024.size a := by
  show i ∈ ((View.whole main_v22).slice (win1_3.rect t)).set ↔ _
  rw [View.set_slice_whole, Rect.mem_set_unit]
  exact Iff.rfl

/-- Every index of the output is in the block of the point that handles its row block, row / 8, and channel block,
    channel / 256. -/
theorem cover (i : S256x512x1024.Idx) :
    ∃ t : Fin cfg1.N, (cfg1.win 3).flush t = true ∧ i ∈ ((cfg1.win 3).blk t).view.set := by
  have hi0 : (i 0).val < 256 := (i 0).isLt
  have hi1 : (i 1).val < 512 := (i 1).isLt
  have hi2 : (i 2).val < 1024 := (i 2).isLt
  obtain ⟨t, ht⟩ := idx_onto ⟨(i 0).val / 8, by omega⟩ ⟨(i 1).val / 256, by omega⟩
  have q0 : win1_3.index t (0 : Fin 3) = (i 0).val / 8 := congrFun ht 0
  have q1 : win1_3.index t (1 : Fin 3) = (i 1).val / 256 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 8 ≤ (i 0).val ∧ (i 0).val < win1_3.index t (0 : Fin 3) * 8 + 8; omega
  | ⟨1, _⟩ => show win1_3.index t (1 : Fin 3) * 256 ≤ (i 1).val ∧ (i 1).val < win1_3.index t (1 : Fin 3) * 256 + 256; omega
  | ⟨2, _⟩ => show win1_3.index t (2 : Fin 3) * 1024 ≤ (i 2).val ∧ (i 2).val < win1_3.index t (2 : Fin 3) * 1024 + 1024; omega

/-- After the region its output array is the scaled-and-shifted array of the three arrays it found. -/
theorem final (c : Dev nD) :
    (dat1 V c).arrAt 3 cfg1.N = scaled (V c main_v0) (V c main_v20) (V c main_v21) :=
  (dat1 V c).arrAt_eq_of_cover 3 _ (fun t _ => flushed_eq V c t) cover

end Cert.KernelIdeal.Affine

end
-- ==== Proof.Excite.lean ====
/-
  The excitation: the host operations both programs apply, in the same order, to the pooled means.

  From a [256, 512] array of means and the four weight arrays: the hidden layer is max(mean · W1ᵀ + b1, 0); the
  second layer is hidden · W2ᵀ + b2, a [256, 1024] array; the scale is 1 / (1 + exp(−y)) of its first 512 columns and
  the shift is its last 512 columns. The two programs differ only in how the means are computed and in how scale and
  shift are applied to the input, so these four functions are named once and never opened: equal means give equal
  scales and shifts.
-/
import proofs.«172013_j74612171866186_2_alg».proof.Proof.Gen.KernelIdeal
import Idealize.ShloMosaic.PureOps.Ideal

noncomputable section

namespace Cert.KernelIdeal.Excite

open Cert.KernelIdeal Cert.KernelIdeal.Facts₀ Idealize.ShloMosaic

/-- The hidden layer: `max(mean · W1ᵀ + b1, 0)`, a [256, 32] array. -/
def hidden (mean : FVec Ideal S256x512 .f32) (w1 : FVec Ideal S32x512 .f32) (b1 : FVec Ideal S32 .f32) :
    FVec Ideal S256x32 .f32 :=
  maximumf
    (addf (Host.dotGeneral dot_S256x512_S512x32_S256x32_1_0_0_1_n_n none mean
        (transpose S512x32 [1, 0] w1 transposes_S32x512_S512x32_1_0))
      (broadcastInDim S256x32 ![0, 1] bcast_S1x32_S256x32_0_1 (broadcastInDim S1x32 ![1] bcast_S32_S1x32_1 b1)))
    (broadcastInDim S256x32 ![] bcast_S_S256x32 (constant (F := Ideal) S_ .f32 0x00000000#32))

/-- The second layer: `hidden · W2ᵀ + b2`, a [256, 1024] array. -/
def second (hid : FVec Ideal S256x32 .f32) (w2 : FVec Ideal S1024x32 .f32) (b2 : FVec Ideal S1024 .f32) :
    FVec Ideal S256x1024 .f32 :=
  addf (Host.dotGeneral dot_S256x32_S32x1024_S256x1024_1_0_0_1_n_n none hid
      (transpose S32x1024 [1, 0] w2 transposes_S1024x32_S32x1024_1_0))
    (broadcastInDim S256x1024 ![0, 1] bcast_S1x1024_S256x1024_0_1 (broadcastInDim S1x1024 ![1] bcast_S1024_S1x1024_1 b2))

/-- The scale: `1 / (1 + exp(−y))` of the first 512 columns. -/
def scale (y : FVec Ideal S256x1024 .f32) : FVec Ideal S256x512 .f32 :=
  Host.divf (broadcastInDim S256x512 ![] bcast_S_S256x512 (constant (F := Ideal) S_ .f32 0x3F800000#32))
    (addf (broadcastInDim S256x512 ![] bcast_S_S256x512 (constant (F := Ideal) S_ .f32 0x3F800000#32))
      (Host.exp (Host.negf (extractStridedSlice S256x512 ![0, 0] y slices_S256x1024_S256x512_0_0))))

/-- The shift: the last 512 columns. -/
def shift (y : FVec Ideal S256x1024 .f32) : FVec Ideal S256x512 .f32 :=
  extractStridedSlice S256x512 ![0, 512] y slices_S256x1024_S256x512_0_512

end Cert.KernelIdeal.Excite

end
-- ==== Proof.Glue.lean ====
/-
  What the idealized kernel program ends holding, as a function of its five argument arrays.

  Reading the result buffer back through the program's segment boundaries: the last reshape views the affine
  region's output as [256, 512, 32, 32]; that output is the flattened input scaled and shifted line by line by the scale
  and the shift; scale and shift are the excitation of the means; the means are the pooling region's output with its
  unit axis dropped; the pooling region's input, like the affine region's, is the first reshape of the input array.
  No segment writes an argument array, and none between a buffer's writer and its reader writes that buffer, so each
  read goes back unchanged to where the value was made.
-/
import proofs.«172013_j74612171866186_2_alg».proof.Proof.Gen.KernelIdeal.Frame
import proofs.«172013_j74612171866186_2_alg».proof.Proof.Pool
import proofs.«172013_j74612171866186_2_alg».proof.Proof.Affine
import proofs.«172013_j74612171866186_2_alg».proof.Proof.Excite
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo

/-! ## The kernel program's value -/

/-- The input viewed as [256, 512, 1024]. -/
def flat (x : FVec Ideal S256x512x32x32 .f32) : FVec Ideal S256x512x1024 .f32 :=
  shapeCast S256x512x1024 x shapeCasts_S256x512x32x32_S256x512x1024

/-- The means as the kernel program computes them: the pooled array of the flattened input, unit axis dropped. -/
def kernelMean (x : FVec Ideal S256x512x32x32 .f32) : FVec Ideal S256x512 .f32 :=
  shapeCast S256x512 (Pool.pooled (flat x)) shapeCasts_S256x512x1_S256x512

/-- The flattened input scaled by `s` and shifted by `β` line by line, viewed as [256, 512, 32, 32] again. -/
def applied (x : FVec Ideal S256x512x32x32 .f32) (s β : FVec Ideal S256x512 .f32) : FVec Ideal S256x512x32x32 .f32 :=
  shapeCast S256x512x32x32 (Affine.scaled (flat x) s β) shapeCasts_S256x512x1024_S256x512x32x32

/-- The kernel program's result as a function of its five arguments. -/
def kernelOut (x : FVec Ideal S256x512x32x32 .f32) (w1 : FVec Ideal S32x512 .f32) (b1 : FVec Ideal S32 .f32)
    (w2 : FVec Ideal S1024x32 .f32) (b2 : FVec Ideal S1024 .f32) : FVec Ideal S256x512x32x32 .f32 :=
  applied x (Excite.scale (Excite.second (Excite.hidden (kernelMean x) w1 b1) w2 b2))
    (Excite.shift (Excite.second (Excite.hidden (kernelMean x) w1 b1) w2 b2))

/-! ## The buffers at the segment boundaries -/

variable (m : (ℓ : Loc nD τ sig) → Buf (Elt Ideal) ℓ) (ρ : Dev nD → PrngReg)

/-- After the first reshape: the flattened input, and the arguments as launched. -/
theorem at1_v0 (c : Dev nD) :
    (W1 m ρ c (Proc.devRef .tc main_v0) : S256x512x1024.Idx → EReal) = flat (m ((c : Thread nD τ).loc main_arg0)) := by
  show StableHlo.after hostOps0 (W0 m ρ c) (Proc.devRef .tc main_v0) = _
  after_results
  rfl
theorem at1_arg1 (c : Dev nD) : W1 m ρ c (Proc.devRef .tc main_arg1) = m ((c : Thread nD τ).loc main_arg1) := by
  show StableHlo.after hostOps0 (W0 m ρ c) (Proc.devRef .tc main_arg1) = _
  after_results
theorem at1_arg2 (c : Dev nD) : W1 m ρ c (Proc.devRef .tc main_arg2) = m ((c : Thread nD τ).loc main_arg2) := by
  show StableHlo.after hostOps0 (W0 m ρ c) (Proc.devRef .tc main_arg2) = _
  after_results
theorem at1_arg3 (c : Dev nD) : W1 m ρ c (Proc.devRef .tc main_arg3) = m ((c : Thread nD τ).loc main_arg3) := by
  show StableHlo.after hostOps0 (W0 m ρ c) (Proc.devRef .tc main_arg3) = _
  after_results
theorem at1_arg4 (c : Dev nD) : W1 m ρ c (Proc.devRef .tc main_arg4) = m ((c : Thread nD τ).loc main_arg4) := by
  show StableHlo.after hostOps0 (W0 m ρ c) (Proc.devRef .tc main_arg4) = _
  after_results

/-- After the pooling region: its output is the pooled array of what it found; nothing else moved. -/
theorem at2_v1 (c : Dev nD) :
    (W2 m ρ c (Proc.devRef .tc main_v1) : S256x512x1.Idx → EReal) = Pool.pooled (W1 m ρ c (Proc.devRef .tc main_v0)) :=
  (W2_arr m ρ c 1).trans (Pool.final (V1 m ρ) c)
/-- The region's input array is one of its arrays, and an input window's array ends as it was entered. -/
theorem at2_v0 (c : Dev nD) : W2 m ρ c (Proc.devRef .tc main_v0) = W1 m ρ c (Proc.devRef .tc main_v0) :=
  (W2_arr m ρ c 0).trans (((dat0 (V1 m ρ) c).arrAt_in 0 rfl cfg0.N).trans (A_eq0 (V1 m ρ) c 0))
theorem at2_arg1 (c : Dev nD) : W2 m ρ c (Proc.devRef .tc main_arg1) = W1 m ρ c (Proc.devRef .tc main_arg1) :=
  W2_of_ne m ρ c main_arg1 (by decide)
theorem at2_arg2 (c : Dev nD) : W2 m ρ c (Proc.devRef .tc main_arg2) = W1 m ρ c (Proc.devRef .tc main_arg2) :=
  W2_of_ne m ρ c main_arg2 (by decide)
theorem at2_arg3 (c : Dev nD) : W2 m ρ c (Proc.devRef .tc main_arg3) = W1 m ρ c (Proc.devRef .tc main_arg3) :=
  W2_of_ne m ρ c main_arg3 (by decide)
theorem at2_arg4 (c : Dev nD) : W2 m ρ c (Proc.devRef .tc main_arg4) = W1 m ρ c (Proc.devRef .tc main_arg4) :=
  W2_of_ne m ρ c main_arg4 (by decide)

/-- The first layer before the rectifier, from the pooled [256, 512, 1] array: its unit axis dropped, times W1ᵀ,
    plus b1. -/
def firstLayer (v1 : FVec Ideal S256x512x1 .f32) (w1 : FVec Ideal S32x512 .f32) (b1 : FVec Ideal S32 .f32) :
    FVec Ideal S256x32 .f32 :=
  addf (Host.dotGeneral dot_S256x512_S512x32_S256x32_1_0_0_1_n_n none
      (shapeCast S256x512 v1 shapeCasts_S256x512x1_S256x512)
      (transpose S512x32 [1, 0] w1 transposes_S32x512_S512x32_1_0))
    (broadcastInDim S256x32 ![0, 1] bcast_S1x32_S256x32_0_1 (broadcastInDim S1x32 ![1] bcast_S32_S1x32_1 b1))

/-- After the first layer's matrix product and bias. -/
theorem at3_v7 (c : Dev nD) :
    (W3 m ρ c (Proc.devRef .tc main_v7) : S256x32.Idx → EReal)
      = firstLayer (W2 m ρ c (Proc.devRef .tc main_v1)) (W2 m ρ c (Proc.devRef .tc main_arg1))
          (W2 m ρ c (Proc.devRef .tc main_arg2)) := by
  show StableHlo.after hostOps1 (W2 m ρ c) (Proc.devRef .tc main_v7) = _
  after_results
  rfl
theorem at3_v0 (c : Dev nD) : W3 m ρ c (Proc.devRef .tc main_v0) = W2 m ρ c (Proc.devRef .tc main_v0) := by
  show StableHlo.after hostOps1 (W2 m ρ c) (Proc.devRef .tc main_v0) = _
  after_results
theorem at3_arg3 (c : Dev nD) : W3 m ρ c (Proc.devRef .tc main_arg3) = W2 m ρ c (Proc.devRef .tc main_arg3) := by
  show StableHlo.after hostOps1 (W2 m ρ c) (Proc.devRef .tc main_arg3) = _
  after_results
theorem at3_arg4 (c : Dev nD) : W3 m ρ c (Proc.devRef .tc main_arg4) = W2 m ρ c (Proc.devRef .tc main_arg4) := by
  show StableHlo.after hostOps1 (W2 m ρ c) (Proc.devRef .tc main_arg4) = _
  after_results

/-- After the rectifier. -/
theorem at4_v8 (c : Dev nD) :
    (W4 m ρ c (Proc.devRef .tc main_v8) : S256x32.Idx → EReal)
      = maximumf (W3 m ρ c (Proc.devRef .tc main_v7))
          (broadcastInDim S256x32 ![] bcast_S_S256x32 (constant (F := Ideal) S_ .f32 0x00000000#32)) := by
  show StableHlo.after hostOps1_1 (W3 m ρ c) (Proc.devRef .tc main_v8) = _
  after_results
  rfl
theorem at4_v0 (c : Dev nD) : W4 m ρ c (Proc.devRef .tc main_v0) = W3 m ρ c (Proc.devRef .tc main_v0) := by
  show StableHlo.after hostOps1_1 (W3 m ρ c) (Proc.devRef .tc main_v0) = _
  after_results
theorem at4_arg3 (c : Dev nD) : W4 m ρ c (Proc.devRef .tc main_arg3) = W3 m ρ c (Proc.devRef .tc main_arg3) := by
  show StableHlo.after hostOps1_1 (W3 m ρ c) (Proc.devRef .tc main_arg3) = _
  after_results
theorem at4_arg4 (c : Dev nD) : W4 m ρ c (Proc.devRef .tc main_arg4) = W3 m ρ c (Proc.devRef .tc main_arg4) := by
  show StableHlo.after hostOps1_1 (W3 m ρ c) (Proc.devRef .tc main_arg4) = _
  after_results

/-- After the second layer, the scale and the shift. -/
theorem at5_v20 (c : Dev nD) :
    (W5 m ρ c (Proc.devRef .tc main_v20) : S256x512.Idx → EReal)
      = Excite.scale (Excite.second (W4 m ρ c (Proc.devRef .tc main_v8)) (W4 m ρ c (Proc.devRef .tc main_arg3))
          (W4 m ρ c (Proc.devRef .tc main_arg4))) := by
  show StableHlo.after hostOps1_2 (W4 m ρ c) (Proc.devRef .tc main_v20) = _
  after_results
  rfl
theorem at5_v21 (c : Dev nD) :
    (W5 m ρ c (Proc.devRef .tc main_v21) : S256x512.Idx → EReal)
      = Excite.shift (Excite.second (W4 m ρ c (Proc.devRef .tc main_v8)) (W4 m ρ c (Proc.devRef .tc main_arg3))
          (W4 m ρ c (Proc.devRef .tc main_arg4))) := by
  show StableHlo.after hostOps1_2 (W4 m ρ c) (Proc.devRef .tc main_v21) = _
  after_results
  rfl
theorem at5_v0 (c : Dev nD) : W5 m ρ c (Proc.devRef .tc main_v0) = W4 m ρ c (Proc.devRef .tc main_v0) := by
  show StableHlo.after hostOps1_2 (W4 m ρ c) (Proc.devRef .tc main_v0) = _
  after_results

/-- After the affine region: its output is the scaled-and-shifted array of what it found. -/
theorem at6_v22 (c : Dev nD) :
    (W6 m ρ c (Proc.devRef .tc main_v22) : S256x512x1024.Idx → EReal)
      = Affine.scaled (W5 m ρ c (Proc.devRef .tc main_v0)) (W5 m ρ c (Proc.devRef .tc main_v20))
          (W5 m ρ c (Proc.devRef .tc main_v21)) :=
  (W6_arr m ρ c 3).trans (Affine.final (V5 m ρ) c)

/-- After the last reshape. -/
theorem at7_v23 (c : Dev nD) :
    (W7 m ρ c (Proc.devRef .tc main_v23) : S256x512x32x32.Idx → EReal)
      = shapeCast S256x512x32x32 (W6 m ρ c (Proc.devRef .tc main_v22)) shapeCasts_S256x512x1024_S256x512x32x32 := by
  show StableHlo.after hostOps2 (W6 m ρ c) (Proc.devRef .tc main_v23) = _
  after_results
  rfl

/-! ## The result -/

/-- The flattened input reaches both regions unchanged. -/
theorem v0_at5 (c : Dev nD) :
    (W5 m ρ c (Proc.devRef .tc main_v0) : S256x512x1024.Idx → EReal) = flat (m ((c : Thread nD τ).loc main_arg0)) := by
  rw [at5_v0, at4_v0, at3_v0, at2_v0, at1_v0]

/-- The hidden layer as the program computes it is the excitation's hidden layer of the kernel's means. -/
theorem v8_at4 (c : Dev nD) :
    (W4 m ρ c (Proc.devRef .tc main_v8) : S256x32.Idx → EReal)
      = Excite.hidden (kernelMean (m ((c : Thread nD τ).loc main_arg0))) (m ((c : Thread nD τ).loc main_arg1))
          (m ((c : Thread nD τ).loc main_arg2)) := by
  rw [at4_v8, at3_v7, at2_v1, at2_arg1, at2_arg2, at1_v0, at1_arg1, at1_arg2]
  rfl

/-- The program ends with its result buffer at `kernelOut` of the five argument arrays as launched. -/
theorem result_eq (c : Dev nD) :
    (W7 m ρ c (Proc.devRef .tc main_v23) : S256x512x32x32.Idx → EReal)
      = kernelOut (m ((c : Thread nD τ).loc main_arg0)) (m ((c : Thread nD τ).loc main_arg1))
          (m ((c : Thread nD τ).loc main_arg2)) (m ((c : Thread nD τ).loc main_arg3)) (m ((c : Thread nD τ).loc main_arg4)) := by
  rw [at7_v23, at6_v22, at5_v20, at5_v21, v0_at5, v8_at4, at4_arg3, at4_arg4, at3_arg3, at3_arg4, at2_arg3, at2_arg4,
    at1_arg3, at1_arg4]
  rfl

end Cert.KernelIdeal.Glue

end
-- ==== Proof.RefSide.lean ====
/-
  What the idealized reference ends holding, as a function of its five argument arrays.

  The reference averages the input over its two trailing axes (a sum from 0 divided by 1024), applies the
  excitation to those means, spreads scale and shift from [256, 512] over the two trailing axes, and returns
  input · scale + shift. The excitation is spelt with the same four functions as on the kernel's side: the two
  programs print the same operations over the same shapes, so the reference's composed term is that expression by
  unfolding alone.
-/
import proofs.«172013_j74612171866186_2_alg».proof.Proof.Gen.ReferenceIdeal.Run
import proofs.«172013_j74612171866186_2_alg».proof.Proof.Excite
import Idealize.ShloMosaic.PureOps.Ideal

noncomputable section

namespace Cert.ReferenceIdeal.RefValue

open Cert.ReferenceIdeal Cert.ReferenceIdeal.Facts₀
open Idealize.ShloMosaic Idealize.ShloMosaic.TcCoe Idealize.SL.Sem

/-- The means as the reference computes them: the sum over the two trailing axes from `0`, divided by `1024`. -/
def refMean (x : FVec Ideal S256x512x32x32 .f32) : FVec Ideal S256x512 .f32 :=
  Host.divf (Host.reduceAdd x (constant (F := Ideal) S_ .f32 0x00000000#32) reducesTo_S256x512x32x32_S256x512_d2_3 h_S_)
    (broadcastInDim S256x512 ![] bcast_S_S256x512 (constant (F := Ideal) S_ .f32 0x44800000#32))

/-- A [256, 512] array spread over the two trailing axes of [256, 512, 32, 32], through [256, 512, 1, 1]. -/
def spread (s : FVec Ideal S256x512 .f32) : FVec Ideal S256x512x32x32 .f32 :=
  broadcastInDim S256x512x32x32 ![0, 1, 2, 3] bcast_S256x512x1x1_S256x512x32x32_0_1_2_3
    (broadcastInDim S256x512x1x1 ![0, 1] bcast_S256x512_S256x512x1x1_0_1 s)

/-- The reference's result as a function of its five arguments. -/
def refOut (x : FVec Ideal S256x512x32x32 .f32) (w1 : FVec Ideal S32x512 .f32) (b1 : FVec Ideal S32 .f32)
    (w2 : FVec Ideal S1024x32 .f32) (b2 : FVec Ideal S1024 .f32) : FVec Ideal S256x512x32x32 .f32 :=
  addf
    (mulf x (spread (Cert.KernelIdeal.Excite.scale
      (Cert.KernelIdeal.Excite.second (Cert.KernelIdeal.Excite.hidden (refMean x) w1 b1) w2 b2))))
    (spread (Cert.KernelIdeal.Excite.shift
      (Cert.KernelIdeal.Excite.second (Cert.KernelIdeal.Excite.hidden (refMean x) w1 b1) w2 b2)))

/-- Every weakly fair execution of the reference terminates without a fault, with its result at `refOut` of the
    argument arrays as launched and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27)
          = refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2⟩) (Cert.ReferenceIdeal.Value.run (F := Ideal) m ρ)

end Cert.ReferenceIdeal.RefValue

end
-- ==== Proof.Consts.lean ====
/-
  The three f32 constants the two programs spell, as the extended reals their words denote: +0.0 is 0, the reference's
  divisor 1024.0 is the real 1024, and the kernel's multiplier 9.765625e-4 is exactly 2⁻¹⁰ = 1/1024 (sign 0, exponent
  field 117, fraction 0). One module states them so that the float decoding is unfolded in one place only.
-/
import Idealize.ShloMosaic.PureOps.Ideal

noncomputable section

namespace Cert.Consts

open Idealize.ShloMosaic

/-- `+0.0` denotes `0`. -/
theorem ofBits_zero : Ideal.ofBits .f32 0x00000000#32 = 0 := by
  simp [Ideal.ofBits, Ideal.ieee]

/-- `1024.0` denotes the real `1024`. -/
theorem ofBits_1024 : Ideal.ofBits .f32 0x44800000#32 = ((1024 : ℝ) : EReal) := by
  simp [Ideal.ofBits, Ideal.ieee, -EReal.coe_mul]; norm_num

/-- `9.765625e-4` denotes the real `1/1024`: the word is the exact power of two `2⁻¹⁰`. -/
theorem ofBits_inv1024 : Ideal.ofBits .f32 0x3A800000#32 = ((1 / 1024 : ℝ) : EReal) := by
  simp [Ideal.ofBits, Ideal.ieee, -EReal.coe_mul]; norm_num

end Cert.Consts

end
-- ==== Proof.MeanLaw.lean ====
/-
  The law that joins the two means.

  The reference averages a [256, 512, 32, 32] array over its two trailing axes: at (b, c) it takes the initial value
  0 plus the sum of the elements (b, c, h, w) and divides by 1024. The kernel first views the array as
  [256, 512, 1024], element (b, c, k) being (b, c, k / 32, k % 32), sums over k and multiplies by 2⁻¹⁰. On the extended
  reals these agree for every input: the 1024 positions k correspond one to one to the pairs (h, w) by k = 32·h + w,
  so the two sums have the same terms (addition there is commutative and associative, infinities included), and a
  quotient by the real 1024 is the product with the real 1/1024 whatever the numerator is.
-/
import Idealize.ShloMosaic.PureOps.Ideal.Laws
import Idealize.ShloMosaic.Lib.ValueIdx
import proofs.«172013_j74612171866186_2_alg».proof.Proof.Consts

noncomputable section

namespace Cert.MeanLaw

open Idealize.ShloMosaic Idealize.ShloMosaic.ValueIdx

/-- The pair (h, w) at flattened position k. -/
abbrev hw (p : Fin 256) (q : Fin 512) (k : Fin 1024) : (⟨4, ![256, 512, 32, 32]⟩ : Shape).Idx :=
  ix4 p q ⟨k.val / 32, by have := k.isLt; omega⟩ ⟨k.val % 32, Nat.mod_lt _ (by norm_num)⟩

/-- The host's sum over the two trailing axes, at (p, q): the initial value plus the sum over the 1024 flattened
    positions. The indices that reduce to (p, q) are exactly the (p, q, h, w), and k = 32·h + w numbers them. -/
theorem hostSum_last2 (x : (⟨4, ![256, 512, 32, 32]⟩ : Shape).Idx → EReal)
    (h : (⟨4, ![256, 512, 32, 32]⟩ : Shape).ReducesTo [2, 3] ⟨2, ![256, 512]⟩) (init : EReal)
    (p : Fin 256) (q : Fin 512) :
    Ideal.hostReduceAdd h x init (ix2 p q) = init + ∑ k : Fin 1024, x (hw p q k) := by
  unfold Ideal.hostReduceAdd
  refine congrArg (init + ·) ?_
  have back : ∀ i ∈ Finset.univ.filter (fun i => h.drop i = ix2 p q),
      hw p q ⟨(i 2).val * 32 + (i 3).val, by
        have h2 : (i 2).val < 32 := (i 2).isLt
        have h3 : (i 3).val < 32 := (i 3).isLt
        omega⟩ = i := by
    intro i hi
    have hd : h.drop i = ix2 p q := (Finset.mem_filter.mp hi).2
    have e0 : (i 0).val = p.val := congrArg Fin.val (congrFun hd 0)
    have e1 : (i 1).val = q.val := congrArg Fin.val (congrFun hd 1)
    have h2 : (i 2).val < 32 := (i 2).isLt
    have h3 : (i 3).val < 32 := (i 3).isLt
    funext a; apply Fin.ext
    match a with
    | ⟨0, _⟩ => exact e0.symm
    | ⟨1, _⟩ => exact e1.symm
    | ⟨2, _⟩ => show ((i 2).val * 32 + (i 3).val) / 32 = (i 2).val; omega
    | ⟨3, _⟩ => show ((i 2).val * 32 + (i 3).val) % 32 = (i 3).val; omega
  refine Finset.sum_nbij'
    (fun i => (⟨(i 2).val * 32 + (i 3).val, by
        have h2 : (i 2).val < 32 := (i 2).isLt
        have h3 : (i 3).val < 32 := (i 3).isLt
        omega⟩ : Fin 1024))
    (fun k => hw p q k) (fun _ _ => Finset.mem_univ _) ?_ back ?_ ?_
  · intro k _
    refine Finset.mem_filter.mpr ⟨Finset.mem_univ _, ?_⟩
    funext b; apply Fin.ext
    match b with
    | ⟨0, _⟩ => rfl
    | ⟨1, _⟩ => rfl
  · intro k _
    apply Fin.ext
    show (k.val / 32) * 32 + k.val % 32 = k.val
    omega
  · intro i hi
    exact congrArg x (back i hi).symm

/-- The two means agree on the extended reals: the flattened sum times `2⁻¹⁰` is the two-axis sum from `0` divided by
    `1024`, for any array `x` and its flattened view `x3`. -/
theorem mean_eq (x : (⟨4, ![256, 512, 32, 32]⟩ : Shape).Idx → EReal) (x3 : (⟨3, ![256, 512, 1024]⟩ : Shape).Idx → EReal)
    (hx3 : ∀ (p : Fin 256) (q : Fin 512) (k : Fin 1024), x3 (ix3 p q k) = x (hw p q k))
    (h : (⟨4, ![256, 512, 32, 32]⟩ : Shape).ReducesTo [2, 3] ⟨2, ![256, 512]⟩) (p : Fin 256) (q : Fin 512) :
    (∑ k : Fin 1024, x3 (ix3 p q k)) * Ideal.ofBits .f32 0x3A800000#32
      = Ideal.div (Ideal.hostReduceAdd h x (Ideal.ofBits .f32 0x00000000#32) (ix2 p q)) (Ideal.ofBits .f32 0x44800000#32) := by
  rw [hostSum_last2, Cert.Consts.ofBits_zero, zero_add, Cert.Consts.ofBits_1024, Cert.Consts.ofBits_inv1024,
    Ideal.div_coe (by norm_num : (1024 : ℝ) ≠ 0)]
  exact congrArg (· * (((1 / 1024 : ℝ) : EReal))) (Finset.sum_congr rfl fun k _ => hx3 p q k)

end Cert.MeanLaw

end
-- ==== Proof.Bridge.lean ====
/-
  The two programs compute one function.

  The means agree on the extended reals by the law of sums: the kernel's mean at (b, c) is the pooled array at
  (b, c, 0), a sum over the 1024 flattened positions times 2⁻¹⁰, and the reference's is the two-axis sum from 0 divided
  by 1024. Equal means give equal scales and shifts, the excitation being one function on both sides. Finally, at
  (b, c, h, w) the kernel's result is the scaled-and-shifted flattened array at (b, c, 32·h + w), where the flattened
  input is the input at (b, c, h, w) and scale and shift are read at (b, c) — which is what the reference's spread scale
  and shift hold at (b, c, h, w).
-/
import proofs.«172013_j74612171866186_2_alg».proof.Proof.Glue
import proofs.«172013_j74612171866186_2_alg».proof.Proof.RefSide
import proofs.«172013_j74612171866186_2_alg».proof.Proof.MeanLaw
import proofs.«172013_j74612171866186_2_alg».proof.Proof.LibKeepdims3

set_option maxRecDepth 16384

noncomputable section

namespace Cert.Bridge

open Idealize.ShloMosaic Idealize.ShloMosaic.ValueIdx
open Cert.KernelIdeal Cert.KernelIdeal.Glue Cert.KernelIdeal.Excite

/-- The flattened input at (p, q, k) is the input at (p, q, k / 32, k % 32). -/
theorem flat_at (x : FVec Ideal S256x512x32x32 .f32) (p : Fin 256) (q : Fin 512) (k : Fin 1024) :
    flat x (ix3 p q k) = x (Cert.MeanLaw.hw p q k) :=
  Cert.Lib.Keepdims3.shapeCast_abcd_abn_apply (by norm_num) x _ p q _ _ k (by
    show k.val = k.val / 32 * 32 + k.val % 32
    omega)

/-- The flattened input at (p, q, 32·h + w) is the input at (p, q, h, w). -/
theorem flat_at' (x : FVec Ideal S256x512x32x32 .f32) (p : Fin 256) (q : Fin 512) (h w : Fin 32) (k : Fin 1024)
    (hk : k.val = h.val * 32 + w.val) : flat x (ix3 p q k) = x (ix4 p q h w) :=
  Cert.Lib.Keepdims3.shapeCast_abcd_abn_apply (by norm_num) x _ p q h w k hk

/-- The kernel's means are the reference's. -/
theorem mean_eq (x : FVec Ideal S256x512x32x32 .f32) : kernelMean x = Cert.ReferenceIdeal.RefValue.refMean x := by
  funext i
  obtain ⟨p, q, rfl⟩ : ∃ (p : Fin 256) (q : Fin 512), i = ix2 p q := ⟨i 0, i 1, eq_ix2 i⟩
  unfold kernelMean
  refine (Cert.Lib.Keepdims3.shapeCast_ab1_ab_apply _ _ p q).trans ?_
  show (∑ k : Fin 1024, flat x (ix3 p q k)) * Ideal.ofBits .f32 0x3A800000#32
      = Ideal.div (Ideal.hostReduceAdd _ x (Ideal.ofBits .f32 0x00000000#32) (ix2 p q)) (Ideal.ofBits .f32 0x44800000#32)
  exact Cert.MeanLaw.mean_eq x (flat x) (flat_at x) _ p q

/-- A [256, 512] array spread over the trailing axes holds at (p, q, h, w) its element (p, q). -/
theorem spread_at (s : FVec Ideal S256x512 .f32) (p : Fin 256) (q : Fin 512) (h w : Fin 32) :
    Cert.ReferenceIdeal.RefValue.spread s (ix4 p q h w) = s (ix2 p q) := by
  unfold Cert.ReferenceIdeal.RefValue.spread
  refine (broadcastInDim_apply _ _ _ (ix4 p q h w) (ix4 p q (0 : Fin 1) (0 : Fin 1)) (fun a => by
    match a with
    | ⟨0, _⟩ => rfl
    | ⟨1, _⟩ => rfl
    | ⟨2, _⟩ => rfl
    | ⟨3, _⟩ => rfl)).trans ?_
  exact broadcastInDim_apply _ _ _ (ix4 p q (0 : Fin 1) (0 : Fin 1)) (ix2 p q) (fun a => by
    match a with
    | ⟨0, _⟩ => rfl
    | ⟨1, _⟩ => rfl)

/-- The kernel program's result function is the reference's. -/
theorem out_eq (x : FVec Ideal S256x512x32x32 .f32) (w1 : FVec Ideal S32x512 .f32) (b1 : FVec Ideal S32 .f32)
    (w2 : FVec Ideal S1024x32 .f32) (b2 : FVec Ideal S1024 .f32) :
    kernelOut x w1 b1 w2 b2 = Cert.ReferenceIdeal.RefValue.refOut x w1 b1 w2 b2 := by
  unfold kernelOut Cert.ReferenceIdeal.RefValue.refOut
  rw [mean_eq x]
  generalize scale (second (hidden (Cert.ReferenceIdeal.RefValue.refMean x) w1 b1) w2 b2) = s
  generalize shift (second (hidden (Cert.ReferenceIdeal.RefValue.refMean x) w1 b1) w2 b2) = β
  funext i
  obtain ⟨p, q, h, w, rfl⟩ : ∃ (p : Fin 256) (q : Fin 512) (h w : Fin 32), i = ix4 p q h w :=
    ⟨i 0, i 1, i 2, i 3, eq_ix4 i⟩
  have hk : h.val * 32 + w.val < 1024 := by have := h.isLt; have := w.isLt; omega
  unfold applied
  refine (Cert.Lib.Keepdims3.shapeCast_abn_abcd_apply (by norm_num) _ _ p q h w ⟨h.val * 32 + w.val, hk⟩ rfl).trans ?_
  show flat x (ix3 p q ⟨h.val * 32 + w.val, hk⟩) * s (ix2 p q) + β (ix2 p q)
      = x (ix4 p q h w) * Cert.ReferenceIdeal.RefValue.spread s (ix4 p q h w)
        + Cert.ReferenceIdeal.RefValue.spread β (ix4 p q h w)
  rw [flat_at' x p q h w _ rfl, spread_at, spread_at]

end Cert.Bridge

end
-- ==== Proof.lean ====
/-
  A squeeze-and-excite block: the kernel program against its reference, on the extended reals.

  Both programs take x : [256, 512, 32, 32] and four weight arrays, average x over its two trailing axes, pass the
  [256, 512] means through a two-layer excitation (a rectified linear layer, a linear layer, a logistic scale on the
  first 512 outputs, the last 512 as a shift), and return x · scale + shift with scale and shift constant along the two
  trailing axes.

  The kernel program does the averaging and the final affine step in two pipelined regions over x viewed as
  [256, 512, 1024]. The first sums each (row, channel) line over its 1024 lanes and multiplies by 2⁻¹⁰; the reference sums
  over the two axes from 0 and divides by 1024. The 1024 lanes are the 32 × 32 positions numbered row by row, so the sums
  have the same terms, and dividing an extended real by 1024 is multiplying it by the exactly representable 1/1024:
  the means agree for every input, finite or not. The excitation is the same list of host operations in both programs,
  so equal means give equal scales and shifts. The second region multiplies lane k of line (b, c) by the scale at (b, c)
  and adds the shift at (b, c); viewed back as [256, 512, 32, 32] that is the reference's x · scale + shift at
  (b, c, k / 32, k % 32).

  The frames of the two kernel programs are the generated ones; the reference's frame is its generated run with the
  result dropped. The idealization rewrote nothing, so it preserves the kernel trivially.
-/
import proofs.«172013_j74612171866186_2_alg».proof.Defs
import proofs.«172013_j74612171866186_2_alg».proof.Proof.Gen.Kernel
import proofs.«172013_j74612171866186_2_alg».proof.Proof.Gen.Kernel.Skeleton
import proofs.«172013_j74612171866186_2_alg».proof.Proof.Gen.Kernel.Launch
import proofs.«172013_j74612171866186_2_alg».proof.Proof.Gen.Kernel.Points
import proofs.«172013_j74612171866186_2_alg».proof.Proof.Gen.Kernel.Frame
import proofs.«172013_j74612171866186_2_alg».proof.Proof.Gen.KernelIdeal
import proofs.«172013_j74612171866186_2_alg».proof.Proof.Gen.KernelIdeal.Skeleton
import proofs.«172013_j74612171866186_2_alg».proof.Proof.Gen.KernelIdeal.Launch
import proofs.«172013_j74612171866186_2_alg».proof.Proof.Gen.KernelIdeal.Points
import proofs.«172013_j74612171866186_2_alg».proof.Proof.Gen.KernelIdeal.Frame
import proofs.«172013_j74612171866186_2_alg».proof.Proof.Gen.ReferenceIdeal
import proofs.«172013_j74612171866186_2_alg».proof.Proof.Gen.ReferenceIdeal.Run
import proofs.«172013_j74612171866186_2_alg».proof.Proof.Gen.ReferenceIdeal.Read
import proofs.«172013_j74612171866186_2_alg».proof.Proof.Gen.Pre_finite_inputs
import proofs.«172013_j74612171866186_2_alg».proof.Proof.KRun
import proofs.«172013_j74612171866186_2_alg».proof.Proof.Glue
import proofs.«172013_j74612171866186_2_alg».proof.Proof.RefSide
import proofs.«172013_j74612171866186_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, with the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The idealized kernel program ends with its result at `kernelOut` of its arguments, the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v23)
            = Cert.KernelIdeal.Glue.kernelOut
                (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
                (m ((c.tc : Thread Cert.KernelIdeal.nD Cert.KernelIdeal.τ).loc Cert.KernelIdeal.main_arg3))
                (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono
    (fun r h c => ⟨(h c).1.trans (Cert.KernelIdeal.Glue.result_eq m ρ c), (h c).2⟩)
    (Cert.KernelIdeal.KRun.run_named m ρ)

/-- From memories agreeing on the arguments both idealized programs run, and end with equal results: the kernel
    program's at `kernelOut` of the arguments, the reference's at `refOut` of the same arguments, one function. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]
  exact (Cert.Bridge.out_eq _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
